-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S64x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x64x64 : Shape := ⟨3, ![64, 64, 64]⟩
abbrev S4096x64 : Shape := ⟨2, ![4096, 64]⟩
abbrev S4096x64x64 : Shape := ⟨3, ![4096, 64, 64]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 21
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64x64, .f32⟩
  | .hbm, ⟨13, _⟩ => ⟨S4096x64, .f32⟩
  | .hbm, ⟨14, _⟩ => ⟨S4096x64x64, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S8192x4096, .bf16⟩
  | .hbm, ⟨19, _⟩ => ⟨S1x4096, .f32⟩
  | .hbm, ⟨20, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S64x64 : S_.BroadcastsInDim S64x64 (![] : Fin 0 → Fin S64x64.rank)
  bcast_S64x64_S64x64x64_0_2 : S64x64.BroadcastsInDim S64x64x64 (![0, 2] : Fin 2 → Fin S64x64x64.rank)
  shapeCasts_S64x64x64_S4096x64 : S64x64x64.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x64x64 : Shape := ⟨3, ![64, 64, 64]⟩
abbrev S4096x64 : Shape := ⟨2, ![4096, 64]⟩
abbrev S4096x64x64 : Shape := ⟨3, ![4096, 64, 64]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64x64, .f32⟩
  | .hbm, ⟨13, _⟩ => ⟨S4096x64, .f32⟩
  | .hbm, ⟨14, _⟩ => ⟨S4096x64x64, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x64_0_2 : S64x64.BroadcastsInDim S64x64x64 (![0, 2] : Fin 2 → Fin S64x64x64.rank)
  shapeCasts_S64x64x64_S4096x64 : S64x64x64.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.Payloads.lean ====
/-
  The three values the kernel body stores, read at one entry (p, q) of the 2048 × 1024 output block, at exact real
  arithmetic:
  * the reset value is 0 everywhere;
  * the accumulation step adds to the running block the product of the 2048 × 512 block of x with the transpose of
    the 1024 × 512 block of the masked weight: entry (p, q) gains Σ_k x(p, k) · w(q, k), k over the 512 columns;
  * the closing step adds the bias row: entry (p, q) gains b(0, q).
-/
import proofs.«139520_j24232205484135_2_alg».proof.Proof.Gen.KernelIdeal.Skeleton
import proofs.«139520_j24232205484135_2_alg».proof.Proof.LibRowDot
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset value: zero at every entry. -/
theorem reset_apply (y : S2048x1024.Idx) : k0_pay1 (F := Ideal) y = 0 := by
  unfold k0_pay1
  exact Ideal.ofBits_zero_f32

/-- The accumulation step at (p, q): the running value there plus the dot product of row p of the x block with row q
    of the weight block. -/
theorem step_apply (x : Vec Ideal S2048x512 .bf16) (w : Vec Ideal S1024x512 .bf16) (acc : Vec Ideal S2048x1024 .f32)
    (p : Fin 2048) (q : Fin 1024) :
    k0_pay2 (F := Ideal) x w acc (ix2 p q) = acc (ix2 p q) + ∑ k : Fin 512, x (ix2 p k) * w (ix2 q k) := by
  unfold k0_pay2
  rw [shapeCast_self, shapeCast_self, shapeCast_self]
  refine congrArg (acc (ix2 p q) + ·) ?_
  exact RowDot.matmul_zero_apply dot_S2048x512_S1024x512_S2048x1024_1_1_0_0_n_n rfl rfl rfl rfl rfl rfl none x w p q

/-- The closing step at (p, q): the value there plus the bias row's entry q. -/
theorem close_apply (v : Vec Ideal S2048x1024 .f32) (b : Vec Ideal S1x1024 .f32) (p : Fin 2048) (q : Fin 1024) :
    k0_pay3 (F := Ideal) v b (ix2 p q) = v (ix2 p q) + b (ix2 (0 : Fin 1) q) := by
  unfold k0_pay3
  rw [shapeCast_self, shapeCast_self]
  refine congrArg (v (ix2 p q) + ·) ?_
  refine broadcastTo_apply b _ (ix2 p q) (ix2 (0 : Fin 1) q) (fun a => ?_)
  match a with
  | ⟨0, _⟩ => rfl
  | ⟨1, _⟩ => rfl

end Cert.KernelIdeal.Payload

end
-- ==== Proof.Fold.lean ====
/-
  The run of eight grid points that fills one output block, unrolled at one entry (p, q) of the block.

  The first point of the run stores 0 plus its product block, each of the next six adds its own, and the eighth adds
  its own and then the bias row. So after the eighth point entry (p, q) holds the sum over the eight points s of
  Σ_k x_s(p, k) · w_s(q, k) — x_s, w_s the point's blocks of x and of the masked weight, k over their 512 columns —
  plus the bias row's entry q. Only associativity of the addition and 0 + a = a are used.
-/
import proofs.«139520_j24232205484135_2_alg».proof.Proof.Gen.KernelIdeal.Value
import proofs.«139520_j24232205484135_2_alg».proof.Proof.Payloads

noncomputable section

open scoped BigOperators

namespace Cert.KernelIdeal.Fold

open Cert.KernelIdeal Cert.KernelIdeal.Gen Cert.KernelIdeal.Value Idealize.ShloMosaic Idealize.ShloMosaic.TcCoe
open Idealize.SL.Sem Idealize.ShloMosaic.ValueIdx

variable (m : (ℓ : Loc nD τ sig) → Buf (Elt Ideal) ℓ)

/-- Entry (p, k) of grid point n's block of x, as an extended real. -/
def xAt (c : Dev nD) (n : ℕ) (h : n < cfg0.N) (p : Fin 2048) (k : Fin 512) : EReal := iblk m c 0 ⟨n, h⟩ (ix2 p k)
/-- Entry (q, k) of grid point n's block of the masked weight. -/
def wAt (c : Dev nD) (n : ℕ) (h : n < cfg0.N) (q : Fin 1024) (k : Fin 512) : EReal := iblk m c 1 ⟨n, h⟩ (ix2 q k)
/-- Entry q of grid point n's block of the bias row. -/
def bAt (c : Dev nD) (n : ℕ) (h : n < cfg0.N) (q : Fin 1024) : EReal := iblk m c 2 ⟨n, h⟩ (ix2 (0 : Fin 1) q)

/-- What grid point n adds at entry y of the output block: the dot product of row y₀ of its block of x with row y₁ of
    its block of the masked weight (and nothing past the grid, where it is never used). -/
def addend (c : Dev nD) (n : ℕ) (y : S2048x1024.Idx) : EReal :=
  if h : n < cfg0.N then ∑ k : Fin 512, xAt m c n h (y 0) k * wAt m c n h (y 1) k else 0

/-- The addend at (p, q), within the grid. -/
theorem addend_apply (c : Dev nD) (n : ℕ) (h : n < cfg0.N) (p : Fin 2048) (q : Fin 1024) :
    addend m c n (ix2 p q) = ∑ k : Fin 512, xAt m c n h p k * wAt m c n h q k := by
  unfold addend
  rw [dif_pos h]

/-- The run's first point leaves 0 plus its addend. -/
theorem reset_eq (c : Dev nD) (b : ℕ) (h : b < cfg0.N) (i : S2048x1024.Idx) :
    reset3 m c b h i = (fun _ => (0 : EReal)) i + addend m c b i := by
  obtain ⟨p, q, rfl⟩ : ∃ (p : Fin 2048) (q : Fin 1024), i = ix2 p q := ⟨i 0, i 1, eq_ix2 i⟩
  unfold reset3
  refine (Payload.step_apply (iblk m c 0 ⟨b, h⟩) (iblk m c 1 ⟨b, h⟩) (k0_pay1 (F := Ideal)) p q).trans ?_
  rw [Payload.reset_apply, addend_apply m c b h p q]
  rfl

/-- Each of the next six points adds its addend to what the point before left. -/
theorem step_eq (c : Dev nD) (R : ℕ) (n : ℕ) (h : n < cfg0.N) (acc : S2048x1024.Idx → EReal) (i : S2048x1024.Idx)
    (hb : 8 * R < n) (he : n ≤ 8 * R + 6) :
    step3 m c n h acc i = acc i + addend m c n i := by
  obtain ⟨p, q, rfl⟩ : ∃ (p : Fin 2048) (q : Fin 1024), i = ix2 p q := ⟨i 0, i 1, eq_ix2 i⟩
  unfold step3
  rw [if_pos (by omega)]
  refine (Payload.step_apply (iblk m c 0 ⟨n, h⟩) (iblk m c 1 ⟨n, h⟩) acc p q).trans ?_
  rw [addend_apply m c n h p q]
  rfl

/-- The eighth point adds its addend and then the bias row. -/
theorem last_eq (c : Dev nD) (R : ℕ) (h : 8 * R + 7 < cfg0.N) (acc : S2048x1024.Idx → EReal) (p : Fin 2048) (q : Fin 1024) :
    step3 m c (8 * R + 7) h acc (ix2 p q)
      = (acc (ix2 p q) + addend m c (8 * R + 7) (ix2 p q)) + bAt m c (8 * R + 7) h q := by
  unfold step3
  rw [if_neg (by omega), if_pos (by omega)]
  refine (Payload.close_apply _ (iblk m c 2 ⟨8 * R + 7, h⟩) p q).trans ?_
  refine congrArg (· + bAt m c (8 * R + 7) h q) ?_
  refine (Payload.step_apply (iblk m c 0 ⟨8 * R + 7, h⟩) (iblk m c 1 ⟨8 * R + 7, h⟩) acc p q).trans ?_
  rw [addend_apply m c (8 * R + 7) h p q]
  rfl

/-- After the run's eighth point, entry (p, q) of the block: the eight addends and the bias row's entry q. -/
theorem fold_apply (c : Dev nD) (R : ℕ) (h : 8 * R + 7 < cfg0.N) (p : Fin 2048) (q : Fin 1024) :
    Pipeline.accAt (reset3 m c) (step3 m c) (8 * R) 7 h (ix2 p q)
      = (∑ s ∈ Finset.range 8, addend m c (8 * R + s) (ix2 p q)) + bAt m c (8 * R + 7) h q := by
  show Pipeline.accAt (reset3 m c) (step3 m c) (8 * R) (6 + 1) h (ix2 p q) = _
  rw [Pipeline.accAt_succ]
  refine (last_eq m c R h _ p q).trans ?_
  rw [Pipeline.accAt_add_apply (reset3 m c) (step3 m c) (fun _ => (0 : EReal)) (addend m c) (8 * R) 6
      (fun hb i => reset_eq m c (8 * R) hb i) (fun n hn acc i hb he => step_eq m c R n hn acc i hb he)
      6 le_rfl (Nat.lt_of_succ_lt h) (ix2 p q),
    zero_add, Finset.sum_range_succ _ 7]

end Cert.KernelIdeal.Fold

end
-- ==== Proof.Blocks.lean ====
/-
  What the region finds in its three input arrays, and what each grid point's blocks read of them.

  The host operations before the region leave: in the first window's array the argument x (a change of float format is
  the identity on exact reals); in the second the masked weight — the block mask clamped to [0, 1], each entry repeated
  over a 64 × 64 tile, times the weight; in the third the bias laid out as one row. Grid point t = 32·i + 8·j + s
  (i, j below 4, s below 8) reads rows 2048·i … of x and rows 1024·j … of the masked weight, both at columns 512·s …,
  and columns 1024·j … of the bias row.
-/
import proofs.«139520_j24232205484135_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The masked weight: the block mask clamped to [0, 1] (max with 0, then min with 1), every entry spread over its
    64 × 64 tile, multiplied entry by entry with the weight. -/
def maskedWeight (bm : FVec Ideal S64x64 .f32) (W : FVec Ideal S4096x4096 .f32) : FVec Ideal S4096x4096 .f32 :=
  mulf (shapeCast S4096x4096 (broadcastInDim S4096x64x64 ![0, 1] bcast_S4096x64_S4096x64x64_0_1
    (shapeCast S4096x64 (broadcastInDim S64x64x64 ![0, 2] bcast_S64x64_S64x64x64_0_2
      (minimumf (broadcastInDim S64x64 ![] bcast_S_S64x64 (id (constant S_ .f32 0x3F800000#32)))
        (maximumf (broadcastInDim S64x64 ![] bcast_S_S64x64 (id (constant S_ .f32 0x00000000#32))) bm)))
      shapeCasts_S64x64x64_S4096x64)) shapeCasts_S4096x64x64_S4096x4096) W

/-- The first window's array is x. -/
theorem V_x (c : Dev nD) (i : S8192x4096.Idx) :
    V m c (Pipeline.arrRef spec0 0) i = m ((c : Thread nD τ).loc main_arg0) i := by
  have e : @Eq (S8192x4096.Idx → EReal) (V m c main_call0_v7)
      (truncf (F := Ideal) (s := S8192x4096) .bf16 (m ((c : Thread nD τ).loc main_arg0)) bitsLt_bf16_f32) := by
    dsimp only [Gen.V, Gen.hostOps0]
    after_results
    rfl
  exact congrFun e i

/-- The second window's array is the masked weight. -/
theorem V_w (c : Dev nD) (i : S4096x4096.Idx) :
    V m c (Pipeline.arrRef spec0 1) i
      = maskedWeight (m ((c : Thread nD τ).loc main_arg3)) (m ((c : Thread nD τ).loc main_arg1)) i := by
  have e : @Eq (S4096x4096.Idx → EReal) (V m c main_call0_v6)
      (truncf (F := Ideal) (s := S4096x4096) .bf16
        (maskedWeight (m ((c : Thread nD τ).loc main_arg3)) (m ((c : Thread nD τ).loc main_arg1))) bitsLt_bf16_f32) := by
    dsimp only [Gen.V, Gen.hostOps0]
    after_results
    rfl
  exact congrFun e i

/-- The third window's array is the bias as a 1 × 4096 row. -/
theorem V_b (c : Dev nD) (q : Fin 4096) :
    V m c (Pipeline.arrRef spec0 2) (ix2 (0 : Fin 1) q) = m ((c : Thread nD τ).loc main_arg2) (ix1 q) := by
  have e : @Eq (S1x4096.Idx → EReal) (V m c main_call0_v8)
      (shapeCast S1x4096 (m ((c : Thread nD τ).loc main_arg2)) shapeCasts_S4096_S1x4096) := by
    dsimp only [Gen.V, Gen.hostOps0]
    after_results
    rfl
  refine (congrFun e (ix2 (0 : Fin 1) q)).trans ?_
  refine shapeCast_apply _ _ (ix2 (0 : Fin 1) q) (ix1 q) ?_
  rw [Shape.rowMajor_val_one, Shape.rowMajor_val_two]
  show q.val = 0 * 4096 + q.val
  omega

/-- The printed index maps, decided over the grid's 128 points. -/
theorem idx_facts : ∀ t : Fin cfg0.N,
    win0_0.index t (0 : Fin 2) = t.val / 32 ∧ win0_0.index t (1 : Fin 2) = t.val % 8
  ∧ win0_1.index t (0 : Fin 2) = t.val / 8 % 4 ∧ win0_1.index t (1 : Fin 2) = t.val % 8
  ∧ win0_2.index t (0 : Fin 2) = 0 ∧ win0_2.index t (1 : Fin 2) = t.val / 8 % 4 :=
  (by decide +kernel : ∀ t : Fin grid0.N, _)

/-- Entry (p, k) of point t's block of x is x at row 2048·(t / 32) + p, column 512·(t % 8) + k. -/
theorem xblk_apply (c : Dev nD) (t : Fin cfg0.N) (p : Fin 2048) (k : Fin 512) (r : Fin 8192) (j : Fin 4096)
    (hr : r.val = t.val / 32 * 2048 + p.val) (hj : j.val = t.val % 8 * 512 + k.val) :
    (iblk m c 0 t : Vec Ideal S2048x512 .bf16) (ix2 p k) = m ((c : Thread nD τ).loc main_arg0) (ix2 r j) := by
  obtain ⟨e0, e1, -⟩ := idx_facts t
  refine Eq.trans ?_ (V_x m c (ix2 r j))
  show V m c (Pipeline.arrRef spec0 0) (((cfg0.win 0).blk t).view.emb (ix2 p k)) = V m c (Pipeline.arrRef spec0 0) (ix2 r j)
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * k.val = j.val; rw [e1, hj]; omega

/-- Entry (q, k) of point t's block of the masked weight is the masked weight at row 1024·(t / 8 % 4) + q, column
    512·(t % 8) + k. -/
theorem wblk_apply (c : Dev nD) (t : Fin cfg0.N) (q : Fin 1024) (k : Fin 512) (n : Fin 4096) (j : Fin 4096)
    (hn : n.val = t.val / 8 % 4 * 1024 + q.val) (hj : j.val = t.val % 8 * 512 + k.val) :
    (iblk m c 1 t : Vec Ideal S1024x512 .bf16) (ix2 q k)
      = maskedWeight (m ((c : Thread nD τ).loc main_arg3)) (m ((c : Thread nD τ).loc main_arg1)) (ix2 n j) := by
  obtain ⟨-, -, e0, e1, -⟩ := idx_facts t
  refine Eq.trans ?_ (V_w m c (ix2 n j))
  show V m c (Pipeline.arrRef spec0 1) (((cfg0.win 1).blk t).view.emb (ix2 q k)) = V m c (Pipeline.arrRef spec0 1) (ix2 n j)
  refine congrArg _ (funext fun a => Fin.ext ?_)
  match a with
  | ⟨0, _⟩ => show win0_1.index t (0 : Fin 2) * 1024 + 1 * q.val = n.val; rw [e0, hn]; omega
  | ⟨1, _⟩ => show win0_1.index t (1 : Fin 2) * 512 + 1 * k.val = j.val; rw [e1, hj]; omega

/-- Entry (0, q) of point t's block of the bias row is the bias at 1024·(t / 8 % 4) + q. -/
theorem bblk_apply (c : Dev nD) (t : Fin cfg0.N) (q : Fin 1024) (n : Fin 4096)
    (hn : n.val = t.val / 8 % 4 * 1024 + q.val) :
    (iblk m c 2 t : Vec Ideal S1x1024 .f32) (ix2 (0 : Fin 1) q) = m ((c : Thread nD τ).loc main_arg2) (ix1 n) := by
  obtain ⟨-, -, -, -, e0, e1⟩ := idx_facts t
  refine Eq.trans ?_ (V_b m c n)
  show V m c (Pipeline.arrRef spec0 2) (((cfg0.win 2).blk t).view.emb (ix2 (0 : Fin 1) q)) = V m c (Pipeline.arrRef spec0 2) (ix2 (0 : Fin 1) n)
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = n.val; rw [e1, hn]; omega

end Cert.KernelIdeal.Blocks

end
-- ==== Proof.BlockSum.lean ====
/-
  A sum over a range of length a·b, taken block by block.

  For an addend f on the naturals with values in a commutative additive monoid, adding the a consecutive blocks of b
  addends each, f (s·b + k) for k below b, gives the sum of f over every natural below a·b: only associativity of
  the addition is used, so it holds on the extended reals with no finiteness.
-/
import Mathlib.Algebra.BigOperators.Fin
import Mathlib.Algebra.BigOperators.Intervals

open scoped BigOperators

namespace BlockSum

/-- The blocks s = 0 … a-1 of b consecutive addends add up to the whole range of a·b addends. -/
theorem sum_range_blocks {M : Type*} [AddCommMonoid M] (f : ℕ → M) (b : ℕ) :
    ∀ a : ℕ, ∑ s ∈ Finset.range a, ∑ k : Fin b, f (s * b + k.val) = ∑ k : Fin (a * b), f k.val
  | 0 => by
    rw [Finset.sum_range_zero, Fin.sum_univ_eq_sum_range (fun k => f k) (0 * b), Nat.zero_mul, Finset.sum_range_zero]
  | a + 1 => by
    rw [Finset.sum_range_succ, sum_range_blocks f b a, Fin.sum_univ_eq_sum_range (fun k => f k) (a * b),
      Fin.sum_univ_eq_sum_range (fun k => f (a * b + k)) b, Fin.sum_univ_eq_sum_range (fun k => f k) ((a + 1) * b),
      Nat.succ_mul, Finset.sum_range_add]

end BlockSum
-- ==== Proof.KernelValue.lean ====
/-
  The kernel's result at one entry (r, n) of the 8192 × 4096 output, as a function of the argument arrays:
  Σ_k x(r, k) · mw(n, k) + bias(n), k over all 4096 columns, mw the masked weight.

  The output block holding (r, n) is filled by the run of eight grid points numbered 8·R … 8·R + 7 with
  R = 4·(r / 2048) + n / 1024; point 8·R + s reads columns 512·s … 512·s + 511 of row r of x and of row n of the masked
  weight, so the eight addends are the eight consecutive blocks of 512 terms of the one sum over 4096 columns.
-/
import proofs.«139520_j24232205484135_2_alg».proof.Proof.Fold
import proofs.«139520_j24232205484135_2_alg».proof.Proof.Blocks
import proofs.«139520_j24232205484135_2_alg».proof.Proof.BlockSum

noncomputable section

open scoped BigOperators

namespace Cert.KernelIdeal.KernelValue

open Cert.KernelIdeal Cert.KernelIdeal.Gen Cert.KernelIdeal.Value Idealize.ShloMosaic Idealize.ShloMosaic.TcCoe
open Idealize.SL.Sem Idealize.ShloMosaic.ValueIdx Cert.KernelIdeal.Blocks

variable (m : (ℓ : Loc nD τ sig) → Buf (Elt Ideal) ℓ)

/-- The argument x, the masked weight and the bias, as arrays of extended reals. -/
def X (c : Dev nD) : S8192x4096.Idx → EReal := m ((c : Thread nD τ).loc main_arg0)
def MW (c : Dev nD) : S4096x4096.Idx → EReal :=
  maskedWeight (m ((c : Thread nD τ).loc main_arg3)) (m ((c : Thread nD τ).loc main_arg1))
def Bias (c : Dev nD) : S4096.Idx → EReal := m ((c : Thread nD τ).loc main_arg2)

/-- Term j of the full-width dot product of row r of x with row n of the masked weight (0 past the last column). -/
def term (c : Dev nD) (r : Fin 8192) (n : Fin 4096) (j : ℕ) : EReal :=
  if h : j < 4096 then X m c (ix2 r ⟨j, h⟩) * MW m c (ix2 n ⟨j, h⟩) else 0

/-- Point 8·R + s of the run that fills (r, n)'s block adds the s-th block of 512 terms. -/
theorem addend_eq (c : Dev nD) (r : Fin 8192) (n : Fin 4096) (s : ℕ) (hs : s < 8) :
    Fold.addend m c (8 * (4 * (r.val / 2048) + n.val / 1024) + s)
        (ix2 (⟨r.val % 2048, Nat.mod_lt _ (by decide)⟩ : Fin 2048) (⟨n.val % 1024, Nat.mod_lt _ (by decide)⟩ : Fin 1024))
      = ∑ k : Fin 512, term m c r n (s * 512 + k.val) := by
  have hr := r.isLt
  have hn := n.isLt
  have hN : cfg0.N = 128 := N_0
  have ht : 8 * (4 * (r.val / 2048) + n.val / 1024) + s < cfg0.N := by omega
  rw [Fold.addend_apply m c _ ht]
  refine Finset.sum_congr rfl fun k _ => ?_
  have hk := k.isLt
  have hj : s * 512 + k.val < 4096 := by omega
  unfold term
  rw [dif_pos hj]
  refine congrArg₂ (· * ·) ?_ ?_
  · exact xblk_apply m c ⟨_, ht⟩ _ k r ⟨s * 512 + k.val, hj⟩
      (by show r.val = (8 * (4 * (r.val / 2048) + n.val / 1024) + s) / 32 * 2048 + r.val % 2048; omega)
      (by show s * 512 + k.val = (8 * (4 * (r.val / 2048) + n.val / 1024) + s) % 8 * 512 + k.val; omega)
  · exact wblk_apply m c ⟨_, ht⟩ _ k n ⟨s * 512 + k.val, hj⟩
      (by show n.val = (8 * (4 * (r.val / 2048) + n.val / 1024) + s) / 8 % 4 * 1024 + n.val % 1024; omega)
      (by show s * 512 + k.val = (8 * (4 * (r.val / 2048) + n.val / 1024) + s) % 8 * 512 + k.val; omega)

/-- The kernel's result array at (r, n). -/
theorem G3_apply (c : Dev nD) (r : Fin 8192) (n : Fin 4096) :
    G3 m c (ix2 r n)
      = (∑ k : Fin 4096, X m c (ix2 r k) * MW m c (ix2 n k)) + Bias m c (ix1 n) := by
  have hr := r.isLt
  have hn := n.isLt
  have hN : cfg0.N = 128 := N_0
  have hR : 8 * (4 * (r.val / 2048) + n.val / 1024) + 7 < cfg0.N := by omega
  have hrun : run3Of (ix2 r n) = 4 * (r.val / 2048) + n.val / 1024 := by
    show 4 * (r.val / 2048 - 0) + 1 * (n.val / 1024 - 0) = _
    omega
  have hloc : loc3Of (ix2 r n)
      = ix2 (⟨r.val % 2048, Nat.mod_lt _ (by decide)⟩ : Fin 2048) (⟨n.val % 1024, Nat.mod_lt _ (by decide)⟩ : Fin 1024) :=
    funext fun a => by match a with | ⟨0, _⟩ => rfl | ⟨1, _⟩ => rfl
  have same : ∀ (b b' : ℕ) (h : b + 7 < cfg0.N) (h' : b' + 7 < cfg0.N), b = b' →
      Pipeline.accAt (reset3 m c) (step3 m c) b 7 h = Pipeline.accAt (reset3 m c) (step3 m c) b' 7 h' := by
    intro b b' h h' e; subst e; rfl
  unfold G3
  rw [dif_pos (by rw [hrun]; exact hR), hloc, same _ _ _ hR (by rw [hrun]), Fold.fold_apply m c _ hR]
  refine congrArg₂ (· + ·) ?_ ?_
  · rw [Finset.sum_congr rfl (fun s hs => addend_eq m c r n s (Finset.mem_range.mp hs))]
    rw [BlockSum.sum_range_blocks (term m c r n) 512 8]
    refine Finset.sum_congr rfl fun k _ => ?_
    unfold term
    rw [dif_pos k.isLt]
  · exact bblk_apply m c ⟨_, hR⟩ _ n
      (by show n.val = (8 * (4 * (r.val / 2048) + n.val / 1024) + 7) / 8 % 4 * 1024 + n.val % 1024; omega)

end Cert.KernelIdeal.KernelValue

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«139520_j24232205484135_2_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.Result.lean ====
/-
  The two programs compute one function of the arguments.

  The reference is x · mwᵀ + bias on the host: at (r, n) the sum over the 4096 columns k of x(r, k) · mw(n, k), plus
  bias(n), with mw the masked weight. The kernel's result array holds the same sum — accumulated eight blocks of 512
  columns at a time — plus the same bias entry. The two masked weights are the same operations of the block mask and the
  weight (the kernel's change of float format being the identity on exact reals), so they are one array.
-/
import proofs.«139520_j24232205484135_2_alg».proof.Proof.KernelValue
import proofs.«139520_j24232205484135_2_alg».proof.Proof.LibHostAffine
import proofs.«139520_j24232205484135_2_alg».proof.Proof.Gen.ReferenceIdeal.Run

noncomputable section

open scoped BigOperators

namespace Cert.Bridge

open Idealize.ShloMosaic Idealize.ShloMosaic.TcCoe Idealize.SL.Sem Idealize.ShloMosaic.ValueIdx

/-- The reference's term of the kernel's argument arrays is the kernel's result array: entry by entry both are
    Σ_k x(r, k) · mw(n, k) + bias(n). -/
theorem result_eq (m : (ℓ : Loc KernelIdeal.nD KernelIdeal.τ KernelIdeal.sig) → Buf (Elt Ideal) ℓ) (c : Dev KernelIdeal.nD) :
    @Eq (KernelIdeal.S8192x4096.Idx → EReal)
      (addf (F := Ideal)
        (Host.dotGeneral (φ₁ := .f32) ReferenceIdeal.dot_S8192x4096_S4096x4096_S8192x4096_1_0_0_1_n_n none
          (m ((c.tc : Thread KernelIdeal.nD KernelIdeal.τ).loc KernelIdeal.main_arg0))
          (transpose ReferenceIdeal.S4096x4096 [1, 0]
            (KernelIdeal.Blocks.maskedWeight (m ((c.tc : Thread KernelIdeal.nD KernelIdeal.τ).loc KernelIdeal.main_arg3))
              (m ((c.tc : Thread KernelIdeal.nD KernelIdeal.τ).loc KernelIdeal.main_arg1)))
            ReferenceIdeal.Gen.transposes_S4096x4096_S4096x4096_1_0))
        (broadcastInDim ReferenceIdeal.S8192x4096 ![0, 1] ReferenceIdeal.Gen.bcast_S1x4096_S8192x4096_0_1
          (broadcastInDim ReferenceIdeal.S1x4096 ![1] ReferenceIdeal.Gen.bcast_S4096_S1x4096_1
            (m ((c.tc : Thread KernelIdeal.nD KernelIdeal.τ).loc KernelIdeal.main_arg2)))))
      (KernelIdeal.Value.G3 m c) := by
  funext i
  obtain ⟨r, n, rfl⟩ : ∃ (r : Fin 8192) (n : Fin 4096), i = ix2 r n := ⟨i 0, i 1, eq_ix2 i⟩
  rw [KernelIdeal.KernelValue.G3_apply m c r n]
  exact HostAffine.affine_apply ReferenceIdeal.dot_S8192x4096_S4096x4096_S8192x4096_1_0_0_1_n_n rfl rfl rfl rfl rfl rfl
    (m ((c.tc : Thread KernelIdeal.nD KernelIdeal.τ).loc KernelIdeal.main_arg0))
    (KernelIdeal.Blocks.maskedWeight (m ((c.tc : Thread KernelIdeal.nD KernelIdeal.τ).loc KernelIdeal.main_arg3))
      (m ((c.tc : Thread KernelIdeal.nD KernelIdeal.τ).loc KernelIdeal.main_arg1)))
    ReferenceIdeal.Gen.transposes_S4096x4096_S4096x4096_1_0
    (m ((c.tc : Thread KernelIdeal.nD KernelIdeal.τ).loc KernelIdeal.main_arg2))
    ReferenceIdeal.Gen.bcast_S4096_S1x4096_1 ReferenceIdeal.Gen.bcast_S1x4096_S8192x4096_0_1 r n

end Cert.Bridge

end
-- ==== Proof.lean ====
/-
  A masked linear layer: out = x · (mask ⊙ weight)ᵀ + bias, with x of 8192 × 4096, weight of 4096 × 4096, the mask a
  64 × 64 block mask clamped to [0, 1] and spread over 64 × 64 tiles.

  The kernel tiles the output into 2048 × 1024 blocks and, for each, walks the 4096 columns of the contraction in eight
  steps of 512: the first step starts from zero, every step adds the product of its 2048 × 512 block of x with the
  transpose of its 1024 × 512 block of the masked weight, and the last step adds the bias row. The reference forms the
  whole product at once and adds the bias. On exact reals (where the kernel's narrowing of its operands' float format
  changes nothing) both results are, at (r, n), the sum over all 4096 columns k of x(r, k) · mw(n, k), plus bias(n):
  the eight partial sums are consecutive blocks of that one sum, and regrouping a sum needs only associativity, so
  the equality holds over the extended reals without using that the inputs are finite.

  The kernel's run and the array it leaves (the fold of the eight steps), the reference's run, and the three frame
  claims come from the generated modules; Proof/Payloads, Blocks, Fold, KernelValue and Result read the fold at one
  entry and set it beside the reference's term.
-/
import proofs.«139520_j24232205484135_2_alg».proof.Defs
import proofs.«139520_j24232205484135_2_alg».proof.Proof.Gen.Kernel.Frame
import proofs.«139520_j24232205484135_2_alg».proof.Proof.Gen.KernelIdeal.Value
import proofs.«139520_j24232205484135_2_alg».proof.Proof.Gen.Pre_finite_inputs
import proofs.«139520_j24232205484135_2_alg».proof.Proof.Gen.ReferenceIdeal.Run
import proofs.«139520_j24232205484135_2_alg».proof.Proof.Result
import Idealize.ShloMosaic.Adequacy
import Idealize.ShloMosaic.Init

noncomputable section

namespace Cert.Proof

open Idealize.ShloMosaic Idealize.SL.Sem

/-- The idealized kernel terminates without a fault and leaves its arguments unchanged: its value run, the result
    dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the same result array: the kernel's fold of
    eight partial products plus the bias is the reference's whole product plus the bias, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1, (hagree c).2.2.2]
  exact Cert.Bridge.result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
